-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000x3 : Shape := ⟨2, ![100000, 3]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S100000x3 .f32) (main_arg3 : FVec F S64x64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S100000x3 : Shape := ⟨2, ![100000, 3]⟩
abbrev S64x64 : Shape := ⟨2, ![64, 64]⟩
abbrev S64 : Shape := ⟨1, ![64]⟩
abbrev S5000x64 : Shape := ⟨2, ![5000, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 41
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000x3, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S_, .f32⟩
  | .hbm, ⟨23, _⟩ => ⟨S100000x64, .f32⟩
  | .hbm, ⟨24, _⟩ => ⟨S1250000x1, .i32⟩
  | .hbm, ⟨25, _⟩ => ⟨S100000x64, .f32⟩
  | .hbm, ⟨26, _⟩ => ⟨S_, .f32⟩
  | .hbm, ⟨27, _⟩ => ⟨S1250000, .f32⟩
  | .hbm, ⟨28, _⟩ => ⟨S_, .f32⟩
  | .hbm, ⟨29, _⟩ => ⟨S100000, .f32⟩
  | .hbm, ⟨30, _⟩ => ⟨S1250000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S1x64, .f32⟩
  | .hbm, ⟨40, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000x3 : Shape := ⟨2, ![100000, 3]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000x3, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1250000, .i32⟩
  | .hbm, ⟨21, _⟩ => ⟨S1250000, .i1⟩
  | .hbm, ⟨22, _⟩ => ⟨S_, .i32⟩
  | .hbm, ⟨23, _⟩ => ⟨S1250000, .i32⟩
  | .hbm, ⟨24, _⟩ => ⟨S1250000, .i32⟩
  | .hbm, ⟨25, _⟩ => ⟨S1250000, .i32⟩
  | .hbm, ⟨26, _⟩ => ⟨S1250000x1, .i32⟩
  | .hbm, ⟨27, _⟩ => ⟨S1250000x64, .f32⟩
  | .hbm, ⟨28, _⟩ => ⟨S_, .f32⟩
  | .hbm, ⟨29, _⟩ => ⟨S100000x64, .f32⟩
  | .hbm, ⟨30, _⟩ => ⟨S1250000x1, .i32⟩
  | .hbm, ⟨31, _⟩ => ⟨S100000x64, .f32⟩
  | .hbm, ⟨32, _⟩ => ⟨S_, .f32⟩
  | .hbm, ⟨33, _⟩ => ⟨S1250000, .f32⟩
  | .hbm, ⟨34, _⟩ => ⟨S_, .f32⟩
  | .hbm, ⟨35, _⟩ => ⟨S100000, .f32⟩
  | .hbm, ⟨36, _⟩ => ⟨S1250000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000x64 : S_.BroadcastsInDim S100000x64 (![] : Fin 0 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

class Facts : Prop extends Facts₀ where

variable [Facts]
-- ==== Proof.Spec.lean ====
/-
  The two dense stages of the network as whole-array functions on the extended reals, over the literal shapes.

  `linScale s X W` is the scaled product: entry (n, f) is (∑ₖ X(n,k) · W(k,f)) · s.
  `mlp A W₁ b₁ W₂ b₂` is the two-layer perceptron with a rectifier between the layers: entry (n, f) is
  (∑ₖ max (∑ⱼ A(n,j) · W₁(j,k) + b₁(0,k)) 0 · W₂(k,f)) + b₂(0,f); the biases are rows, shape [1, 64].
  Both are stated row by row, so a block of rows of the result depends only on the same rows of the first operand.
-/
import Idealize.ShloMosaic.PureOps.Ideal
import Idealize.ShloMosaic.Lib.ValueIdx

noncomputable section

namespace Cert.Spec

open Idealize.ShloMosaic Idealize.ShloMosaic.ValueIdx

/-- The scaled product of a [100000, 64] array with a [64, 64] array. -/
def linScale (s : EReal) (X : (⟨2, ![100000, 64]⟩ : Shape).Idx → EReal) (W : (⟨2, ![64, 64]⟩ : Shape).Idx → EReal) :
    (⟨2, ![100000, 64]⟩ : Shape).Idx → EReal :=
  fun i => (∑ k : Fin 64, X (ix2 (i 0) k) * W (ix2 k (i 1))) * s

/-- The two-layer perceptron on the rows of a [100000, 64] array. -/
def mlp (A : (⟨2, ![100000, 64]⟩ : Shape).Idx → EReal) (W₁ : (⟨2, ![64, 64]⟩ : Shape).Idx → EReal)
    (b₁ : (⟨2, ![1, 64]⟩ : Shape).Idx → EReal) (W₂ : (⟨2, ![64, 64]⟩ : Shape).Idx → EReal)
    (b₂ : (⟨2, ![1, 64]⟩ : Shape).Idx → EReal) : (⟨2, ![100000, 64]⟩ : Shape).Idx → EReal :=
  fun i => (∑ k : Fin 64, max ((∑ j : Fin 64, A (ix2 (i 0) j) * W₁ (ix2 j k)) + b₁ (ix2 (0 : Fin 1) k)) 0 * W₂ (ix2 k (i 1)))
    + b₂ (ix2 (0 : Fin 1) (i 1))

end Cert.Spec

end
-- ==== Proof.MatmulEntry.lean ====
/-
  One entry of a kernel matrix product. Both kernel bodies multiply a [5000, 64] block by a [64, 64] matrix into a
  zero accumulator; at the extended reals entry (p, q) of that product is the plain sum ∑ₖ L(p,k) · R(k,q) over the
  64 contracted coordinates: the accumulator's zero word is the real zero, and the contraction index, a one-axis
  shape index, is re-indexed by its single coordinate.
-/
import proofs.«148474_j23922967838730_1_alg».proof.Proof.Gen.KernelIdeal
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx

/-- The left operand's row is the output's row, whatever the contraction index. -/
theorem lhs_row (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The right operand's column is the output's column, whatever the contraction index. -/
theorem rhs_col (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The left operand is read at the output's row and the contracted coordinate. -/
theorem lhs_at (p : Fin 5000) (q k : Fin 64) :
    dot_S5000x64_S64x64_S5000x64_1_0_0_1_n_n.lhsIdx (ix2 p q)
      ((contrEquiv1 dot_S5000x64_S64x64_S5000x64_1_0_0_1_n_n 64 rfl rfl).symm k) = (ix2 p k : S5000x64.Idx) := by
  have hk := contrEquiv1_symm_val dot_S5000x64_S64x64_S5000x64_1_0_0_1_n_n 64 rfl rfl k
  refine funext fun a => Fin.ext ?_
  match a with
  | ⟨0, _⟩ => exact lhs_row _ _
  | ⟨1, _⟩ => exact (dot_S5000x64_S64x64_S5000x64_1_0_0_1_n_n.lhsIdx_val_of_single rfl _ _).trans hk

/-- The right operand is read at the contracted coordinate and the output's column. -/
theorem rhs_at (p : Fin 5000) (q k : Fin 64) :
    dot_S5000x64_S64x64_S5000x64_1_0_0_1_n_n.rhsIdx (ix2 p q)
      ((contrEquiv1 dot_S5000x64_S64x64_S5000x64_1_0_0_1_n_n 64 rfl rfl).symm k) = (ix2 k q : S64x64.Idx) := by
  have hk := contrEquiv1_symm_val dot_S5000x64_S64x64_S5000x64_1_0_0_1_n_n 64 rfl rfl k
  refine funext fun a => Fin.ext ?_
  match a with
  | ⟨0, _⟩ => exact (dot_S5000x64_S64x64_S5000x64_1_0_0_1_n_n.rhsIdx_val_of_single rfl _ _).trans hk
  | ⟨1, _⟩ => exact rhs_col _ _

/-- Entry (p, q) of the block product into a zero accumulator is ∑ₖ L(p,k) · R(k,q). -/
theorem matmul_zero_entry (L : FVec Ideal S5000x64 .f32) (R : FVec Ideal S64x64 .f32) (p : Fin 5000) (q : Fin 64) :
    matmul dot_S5000x64_S64x64_S5000x64_1_0_0_1_n_n none L R (constant (F := Ideal) S5000x64 .f32 0x00000000#32) (ix2 p q)
      = ∑ k : Fin 64, L (ix2 p k) * R (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  rw [lhs_at, rhs_at]

end Cert.KernelIdeal.Entry

end
-- ==== Proof.Region0.lean ====
/-
  The first region: the scaled product, block by block.

  The body multiplies its block of 5000 rows of X by the whole 64×64 matrix and scales every entry by one word.
  Entry (p, q) of a block's product is ∑ₖ X(5000·t + p, k) · W(k, q): a row of the product depends only on the same
  row of X, so the block that point t writes back is rows 5000·t … 5000·t + 4999 of the whole-array scaled product
  of the arrays the region finds; the twenty blocks cover the 100000 rows, and the output array ends at that function.
-/
import proofs.«148474_j23922967838730_1_alg».proof.Proof.Gen.KernelIdeal.Frame
import proofs.«148474_j23922967838730_1_alg».proof.Proof.Spec
import proofs.«148474_j23922967838730_1_alg».proof.Proof.MatmulEntry
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Every access of the body starts at the origin of its buffer. -/
theorem hz : (![0, 0] : Fin 2 → Nat) = fun _ => 0 := funext fun a => by fin_cases a <;> rfl

/-- The body's payload at entry (p, q): the block product's entry times the kernel's scale word. -/
theorem payload_entry (x0 : Vec Ideal S5000x64 .f32) (x1 : Vec Ideal S64x64 .f32) (p : Fin 5000) (q : Fin 64) :
    k0_pay1 x0 x1 (ix2 p q) = (∑ k : Fin 64, x0 (ix2 p k) * x1 (ix2 k q)) * Ideal.ofBits .f32 0x3D106EBB#32 := by
  unfold k0_pay1
  rw [mulf_apply, broadcast_apply, Entry.matmul_zero_entry]
  rfl

/-- A block entry is the whole product's entry, once the block's row is the array's row and the matrix is whole. -/
theorem block_entry (x0 : Vec Ideal S5000x64 .f32) (x1 : Vec Ideal S64x64 .f32)
    (A : S100000x64.Idx → EReal) (W : S64x64.Idx → EReal) (p : Fin 5000) (q : Fin 64) (i : S100000x64.Idx)
    (h0 : ∀ k : Fin 64, x0 (ix2 p k) = A (ix2 (i 0) k)) (h1 : ∀ k : Fin 64, x1 (ix2 k q) = W (ix2 k (i 1))) :
    k0_pay1 x0 x1 (ix2 p q) = Spec.linScale (Ideal.ofBits .f32 0x3D106EBB#32) A W i := by
  rw [payload_entry]
  unfold Spec.linScale
  simp only [h0, h1]

/-- The printed index maps over the grid: the first operand and the output move one block of rows per point, the
    matrix stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled product of the arrays the region finds. -/
theorem flushed_eq (c : Dev nD) (t : Fin cfg0.N) :
    (dat0 V c).flushed 2 t = ((cfg0.win 2).blk t).view.read (Elt Ideal)
      (Spec.linScale (Ideal.ofBits .f32 0x3D106EBB#32) (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Spec.linScale (Ideal.ofBits .f32 0x3D106EBB#32) (V c main_arg0) (V c main_arg3) (((cfg0.win 2).blk t).view.emb (ix2 p q))
  obtain ⟨e00, e01, e10, e11, e20, e21⟩ := idx_facts t
  refine block_entry (iblk0 V c 0 t) (iblk0 V c 1 t) (V c main_arg0) (V c main_arg3) p q _ (fun k => ?_) (fun k => ?_)
  · unfold iblk0
    rw [View.read_apply]
    show V c main_arg0 (((cfg0.win 0).blk t).view.emb (ix2 p k)) = V c main_arg0 _
    refine congrArg (V c main_arg0) (funext fun a => Fin.ext ?_)
    match a with
    | ⟨0, _⟩ =>
      show win0_0.index t (0 : Fin 2) * 5000 + 1 * p.val = win0_2.index t (0 : Fin 2) * 5000 + 1 * p.val
      rw [e00, e20]
    | ⟨1, _⟩ =>
      show win0_0.index t (1 : Fin 2) * 64 + 1 * k.val = k.val
      rw [e01]; omega
  · unfold iblk0
    rw [View.read_apply]
    show V c main_arg3 (((cfg0.win 1).blk t).view.emb (ix2 k q)) = V c main_arg3 _
    refine congrArg (V c main_arg3) (funext fun a => Fin.ext ?_)
    match a with
    | ⟨0, _⟩ =>
      show win0_1.index t (0 : Fin 2) * 64 + 1 * k.val = k.val
      rw [e10]; omega
    | ⟨1, _⟩ =>
      show win0_1.index t (1 : Fin 2) * 64 + 1 * q.val = win0_2.index t (1 : Fin 2) * 64 + 1 * q.val
      rw [e11, e21]

/-- An index of the array is in point `t`'s output block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks cover the array: row r is in the block of point r / 5000. -/
theorem cover (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  have ht : (i 0).val / 5000 < cfg0.N := by rw [hN]; omega
  refine ⟨⟨(i 0).val / 5000, ht⟩, flush0_2 _, ?_⟩
  rw [mem_blk]
  obtain ⟨-, -, -, -, e20, e21⟩ := idx_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e21]
    omega

/-- The first region leaves, in its output array, the scaled product of its two operand arrays as it found them. -/
theorem final (c : Dev nD) :
    (dat0 V c).arrAt 2 cfg0.N
      = Spec.linScale (Ideal.ofBits .f32 0x3D106EBB#32) (V c main_arg0) (V c main_arg3) :=
  (dat0 V c).arrAt_eq_of_cover 2 _ (fun t _ => flushed_eq V c t) cover

end Cert.KernelIdeal.Linear

end
-- ==== Proof.Region1.lean ====
/-
  The second region: the two-layer perceptron, block by block.

  The body multiplies its block of 5000 rows by the first weight matrix, adds the first bias row to every row, takes
  the maximum with zero, multiplies by the second weight matrix and adds the second bias row. Every entry of a row of
  the result depends only on the same row of the first operand, so the block that point t writes back is rows
  5000·t … 5000·t + 4999 of the whole-array perceptron of the arrays the region finds; the twenty blocks cover the
  100000 rows, and the output array ends at that function.
-/
import proofs.«148474_j23922967838730_1_alg».proof.Proof.Gen.KernelIdeal.Frame
import proofs.«148474_j23922967838730_1_alg».proof.Proof.Spec
import proofs.«148474_j23922967838730_1_alg».proof.Proof.MatmulEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Perceptron

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Every access of the body starts at the origin of its buffer. -/
theorem hz : (![0, 0] : Fin 2 → Nat) = fun _ => 0 := funext fun a => by fin_cases a <;> rfl

/-- The body's payload at entry (p, q), from its five loaded blocks. -/
theorem payload_entry (x0 : Vec Ideal S5000x64 .f32) (x1 : Vec Ideal S64x64 .f32) (x2 : Vec Ideal S1x64 .f32)
    (x3 : Vec Ideal S64x64 .f32) (x4 : Vec Ideal S1x64 .f32) (p : Fin 5000) (q : Fin 64) :
    k1_pay1 x0 x1 x2 x3 x4 (ix2 p q)
      = (∑ k : Fin 64, max ((∑ j : Fin 64, x0 (ix2 p j) * x1 (ix2 j k)) + x2 (ix2 (0 : Fin 1) k)) 0 * x3 (ix2 k q))
        + x4 (ix2 (0 : Fin 1) q) := by
  unfold k1_pay1
  rw [addf_apply, Entry.matmul_zero_entry, shapeCast_self, shapeCast_self, shapeCast_self, broadcastTo_1b_ab_apply]
  congr 1
  refine Finset.sum_congr rfl fun k _ => ?_
  rw [maximumf_apply, addf_apply, Entry.matmul_zero_entry, broadcastTo_1b_ab_apply, broadcast_apply]
  show max (_ + _) (Ideal.ofBits .f32 0x00000000#32) * _ = _
  rw [Ideal.ofBits_zero_f32]

/-- A block entry is the whole-array perceptron's entry, once the block's row is the array's row and the four
    small operands are whole. -/
theorem block_entry (x0 : Vec Ideal S5000x64 .f32) (x1 : Vec Ideal S64x64 .f32) (x2 : Vec Ideal S1x64 .f32)
    (x3 : Vec Ideal S64x64 .f32) (x4 : Vec Ideal S1x64 .f32)
    (A : S100000x64.Idx → EReal) (W₁ : S64x64.Idx → EReal) (b₁ : S1x64.Idx → EReal) (W₂ : S64x64.Idx → EReal)
    (b₂ : S1x64.Idx → EReal) (p : Fin 5000) (q : Fin 64) (n : Fin 100000)
    (h0 : ∀ j : Fin 64, x0 (ix2 p j) = A (ix2 n j)) (h1 : x1 = W₁) (h2 : x2 = b₁) (h3 : x3 = W₂) (h4 : x4 = b₂) :
    k1_pay1 x0 x1 x2 x3 x4 (ix2 p q) = Spec.mlp A W₁ b₁ W₂ b₂ (ix2 n q) := by
  subst h1 h2 h3 h4
  rw [payload_entry]
  show _ = (∑ k : Fin 64, max ((∑ j : Fin 64, A (ix2 n j) * x1 (ix2 j k)) + x2 (ix2 (0 : Fin 1) k)) 0 * x3 (ix2 k q))
    + x4 (ix2 (0 : Fin 1) q)
  simp only [h0]

/-- The printed index maps over the grid: the first operand and the output move one block of rows per point, the
    four small operands stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the perceptron of the arrays the region finds. -/
theorem flushed_eq (c : Dev nD) (t : Fin cfg1.N) :
    (dat1 V c).flushed 5 t = ((cfg1.win 5).blk t).view.read (Elt Ideal)
      (Spec.mlp (V c main_v23) (V c main_arg4) (V c main_v24) (V c main_arg6) (V c main_v25)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = Spec.mlp (V c main_v23) (V c main_arg4) (V c main_v24) (V c main_arg6) (V c main_v25)
        (((cfg1.win 5).blk t).view.emb (ix2 p q))
  obtain ⟨e00, e01, e10, e11, e20, e21, e30, e31, e40, e41, e50, e51⟩ := idx_facts t
  have hN : cfg1.N = 20 := N_1
  have hrow : t.val * 5000 + p.val < 100000 := by have := t.isLt; have := p.isLt; omega
  have hemb : ((cfg1.win 5).blk t).view.emb (ix2 p q) = (ix2 ⟨t.val * 5000 + p.val, hrow⟩ q : S100000x64.Idx) :=
    funext fun a => Fin.ext (by
      match a with
      | ⟨0, _⟩ => show win1_5.index t (0 : Fin 2) * 5000 + 1 * p.val = t.val * 5000 + p.val; rw [e50]; omega
      | ⟨1, _⟩ => show win1_5.index t (1 : Fin 2) * 64 + 1 * q.val = q.val; rw [e51]; omega)
  rw [hemb]
  refine block_entry (iblk1 V c 0 t) (iblk1 V c 1 t) (iblk1 V c 2 t) (iblk1 V c 3 t) (iblk1 V c 4 t)
    (V c main_v23) (V c main_arg4) (V c main_v24) (V c main_arg6) (V c main_v25) p q ⟨t.val * 5000 + p.val, hrow⟩
    (fun k => ?_) ?_ ?_ ?_ ?_
  · unfold iblk1
    rw [View.read_apply]
    show V c main_v23 (((cfg1.win 0).blk t).view.emb (ix2 p k)) = V c main_v23 _
    refine congrArg (V c main_v23) (funext fun a => Fin.ext ?_)
    match a with
    | ⟨0, _⟩ =>
      show win1_0.index t (0 : Fin 2) * 5000 + 1 * p.val = t.val * 5000 + p.val
      rw [e00]; omega
    | ⟨1, _⟩ =>
      show win1_0.index t (1 : Fin 2) * 64 + 1 * k.val = k.val
      rw [e01]; omega
  · funext y
    unfold iblk1
    rw [View.read_apply]
    show V c main_arg4 (((cfg1.win 1).blk t).view.emb y) = V c main_arg4 y
    refine congrArg (V c main_arg4) (funext fun a => Fin.ext ?_)
    match a with
    | ⟨0, _⟩ => show win1_1.index t (0 : Fin 2) * 64 + 1 * (y 0).val = (y 0).val; rw [e10]; omega
    | ⟨1, _⟩ => show win1_1.index t (1 : Fin 2) * 64 + 1 * (y 1).val = (y 1).val; rw [e11]; omega
  · funext y
    unfold iblk1
    rw [View.read_apply]
    show V c main_v24 (((cfg1.win 2).blk t).view.emb y) = V c main_v24 y
    refine congrArg (V c main_v24) (funext fun a => Fin.ext ?_)
    match a with
    | ⟨0, _⟩ => show win1_2.index t (0 : Fin 2) * 1 + 1 * (y 0).val = (y 0).val; rw [e20]; omega
    | ⟨1, _⟩ => show win1_2.index t (1 : Fin 2) * 64 + 1 * (y 1).val = (y 1).val; rw [e21]; omega
  · funext y
    unfold iblk1
    rw [View.read_apply]
    show V c main_arg6 (((cfg1.win 3).blk t).view.emb y) = V c main_arg6 y
    refine congrArg (V c main_arg6) (funext fun a => Fin.ext ?_)
    match a with
    | ⟨0, _⟩ => show win1_3.index t (0 : Fin 2) * 64 + 1 * (y 0).val = (y 0).val; rw [e30]; omega
    | ⟨1, _⟩ => show win1_3.index t (1 : Fin 2) * 64 + 1 * (y 1).val = (y 1).val; rw [e31]; omega
  · funext y
    unfold iblk1
    rw [View.read_apply]
    show V c main_v25 (((cfg1.win 4).blk t).view.emb y) = V c main_v25 y
    refine congrArg (V c main_v25) (funext fun a => Fin.ext ?_)
    match a with
    | ⟨0, _⟩ => show win1_4.index t (0 : Fin 2) * 1 + 1 * (y 0).val = (y 0).val; rw [e40]; omega
    | ⟨1, _⟩ => show win1_4.index t (1 : Fin 2) * 64 + 1 * (y 1).val = (y 1).val; rw [e41]; omega

/-- An index of the array is in point `t`'s output block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v26).slice (win1_5.rect t)).set ↔ _
  rw [View.set_slice_whole, Rect.mem_set_unit]
  exact Iff.rfl

/-- The twenty row blocks cover the array: row r is in the block of point r / 5000. -/
theorem cover (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  have ht : (i 0).val / 5000 < cfg1.N := by rw [hN]; omega
  refine ⟨⟨(i 0).val / 5000, ht⟩, flush1_5 _, ?_⟩
  rw [mem_blk]
  obtain ⟨-, -, -, -, -, -, -, -, -, -, e50, e51⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e51]
    omega

/-- The second region leaves, in its output array, the perceptron of its five operand arrays as it found them. -/
theorem final (c : Dev nD) :
    (dat1 V c).arrAt 5 cfg1.N
      = Spec.mlp (V c main_v23) (V c main_arg4) (V c main_v24) (V c main_arg6) (V c main_v25) :=
  (dat1 V c).arrAt_eq_of_cover 5 _ (fun t _ => flushed_eq V c t) cover

end Cert.KernelIdeal.Perceptron

end
-- ==== Proof.Between.lean ====
/-
  The idealized kernel's result array as one function of the argument arrays.

  Between the two regions the host gathers rows of the first region's output by the edges' source nodes, adds them
  into their destination nodes and divides by the clamped count (`aggr`: the host operations as the kernel's program
  spells them, one function of the first region's output and the edge list), and reshapes the two bias vectors to
  rows. The first region's output array is the scaled product of the arguments; the second region finds the
  aggregated features, the weight matrices as launched and the bias rows, and leaves their perceptron in the result
  array. The aggregation itself is never opened.
-/
import proofs.«148474_j23922967838730_1_alg».proof.Proof.Region0
import proofs.«148474_j23922967838730_1_alg».proof.Proof.Region1
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo
open Idealize.ShloMosaic.Pipeline (Dat)

/-- The destination nodes of the edges: the first row of the edge list. -/
def dst (e : (⟨S2x1250000, .i32⟩ : BufTy).Contents (Elt Ideal)) : (⟨S1250000, .i32⟩ : BufTy).Contents (Elt Ideal) :=
  shapeCast _ (extractStridedSlice S1x1250000 ![0, 0] e slices_S2x1250000_S1x1250000_0_0) shapeCasts_S1x1250000_S1250000

/-- The source nodes of the edges: the second row of the edge list. -/
def src (e : (⟨S2x1250000, .i32⟩ : BufTy).Contents (Elt Ideal)) : (⟨S1250000, .i32⟩ : BufTy).Contents (Elt Ideal) :=
  shapeCast _ (extractStridedSlice S1x1250000 ![1, 0] e slices_S2x1250000_S1x1250000_1_0) shapeCasts_S1x1250000_S1250000

/-- The scatter-mean of gathered rows: the rows of `xw` at the edges' source nodes (a negative index wrapped once)
    added into the edges' destination nodes from zero, divided by the number of incoming edges clamped below at one. -/
def aggr (xw : FVec Ideal S100000x64 .f32) (e : (⟨S2x1250000, .i32⟩ : BufTy).Contents (Elt Ideal)) :
    FVec Ideal S100000x64 .f32 :=
  Host.divf (F := Ideal)
    (Host.scatterAdd (F := Ideal) scatter_S100000x64_S1250000x1_S1250000x64_1_0_0_1
      (broadcastInDim S100000x64 ![] bcast_S_S100000x64 (constant (F := Ideal) S_ .f32 0x00000000#32))
      (broadcastInDim S1250000x1 ![0] bcast_S1250000_S1250000x1_0 (dst e))
      (Host.gather gather_S100000x64_S1250000x1_S1250000x64_1_0_n_n_0_1_164 xw
        (broadcastInDim S1250000x1 ![0] bcast_S1250000_S1250000x1_0
          (select (cmpi .slt (src e) (broadcastInDim S1250000 ![] bcast_S_S1250000 (constantI S_ 32 0#32)))
            (addi (src e) (broadcastInDim S1250000 ![] bcast_S_S1250000 (constantI S_ 32 100000#32))) (src e)))))
    (broadcastInDim S100000x64 ![0, 1] bcast_S100000x1_S100000x64_0_1
      (broadcastInDim S100000x1 ![0] bcast_S100000_S100000x1_0
        (maximumf (F := Ideal)
          (Host.scatterAdd (F := Ideal) scatter_S100000_S1250000x1_S1250000_n_0_0_1
            (broadcastInDim S100000 ![] bcast_S_S100000 (constant (F := Ideal) S_ .f32 0x00000000#32))
            (broadcastInDim S1250000x1 ![0] bcast_S1250000_S1250000x1_0 (dst e))
            (broadcastInDim S1250000 ![] bcast_S_S1250000 (constant (F := Ideal) S_ .f32 0x3F800000#32)))
          (broadcastInDim S100000 ![] bcast_S_S100000 (constant (F := Ideal) S_ .f32 0x3F800000#32)))))

variable (m : (ℓ : Loc nD τ sig) → Buf (Elt Ideal) ℓ) (ρ : Dev nD → PrngReg)

set_option maxHeartbeats 2000000 in
/-- The second region finds the aggregated features: `aggr` of what the first region left and the edge list. -/
theorem entry_features (c : Dev nD) :
    V2 m ρ c main_v23 = aggr (V1 m ρ c main_v0) (V1 m ρ c main_arg1) := by
  show StableHlo.after hostOps1 (W1 m ρ c) (Proc.devRef .tc main_v23) = _
  after_results_simp
  rfl

/-- The first region's output array is the scaled product of the argument arrays. -/
theorem scaled (c : Dev nD) :
    V1 m ρ c main_v0 = Spec.linScale (Ideal.ofBits .f32 0x3D106EBB#32)
      (m ((c : Thread nD τ).loc main_arg0)) (m ((c : Thread nD τ).loc main_arg3)) :=
  (W1_arr m ρ c 2).trans (Linear.final (V0 m ρ) c)

/-- The first region leaves the edge list as launched. -/
theorem edges (c : Dev nD) : V1 m ρ c main_arg1 = m ((c : Thread nD τ).loc main_arg1) :=
  W1_of_ne m ρ c main_arg1 (by decide)

set_option maxHeartbeats 2000000 in
/-- The second region finds the first weight matrix as launched: no operation before it writes the argument. -/
theorem entry_w1 (c : Dev nD) : V2 m ρ c main_arg4 = m ((c : Thread nD τ).loc main_arg4) := by
  show StableHlo.after hostOps1 (W1 m ρ c) (Proc.devRef .tc main_arg4) = _
  after_results_simp
  exact W1_of_ne m ρ c main_arg4 (by decide)

set_option maxHeartbeats 2000000 in
/-- The second region finds the second weight matrix as launched. -/
theorem entry_w2 (c : Dev nD) : V2 m ρ c main_arg6 = m ((c : Thread nD τ).loc main_arg6) := by
  show StableHlo.after hostOps1 (W1 m ρ c) (Proc.devRef .tc main_arg6) = _
  after_results_simp
  exact W1_of_ne m ρ c main_arg6 (by decide)

set_option maxHeartbeats 2000000 in
/-- The second region finds the first bias as a row: the launched vector reshaped to [1, 64]. -/
theorem entry_b1 (c : Dev nD) :
    V2 m ρ c main_v24 = shapeCast S1x64 (m ((c : Thread nD τ).loc main_arg5)) shapeCasts_S64_S1x64 := by
  show StableHlo.after hostOps1 (W1 m ρ c) (Proc.devRef .tc main_v24) = _
  after_results_simp
  rw [W1_of_ne m ρ c main_arg5 (by decide)]
  rfl

set_option maxHeartbeats 2000000 in
/-- The second region finds the second bias as a row. -/
theorem entry_b2 (c : Dev nD) :
    V2 m ρ c main_v25 = shapeCast S1x64 (m ((c : Thread nD τ).loc main_arg7)) shapeCasts_S64_S1x64 := by
  show StableHlo.after hostOps1 (W1 m ρ c) (Proc.devRef .tc main_v25) = _
  after_results_simp
  rw [W1_of_ne m ρ c main_arg7 (by decide)]
  rfl

/-- The result array after the run, as one function of the argument arrays: the perceptron of the aggregated
    scaled product. -/
def result (c : Dev nD) : FVec Ideal S100000x64 .f32 :=
  Spec.mlp
    (aggr (Spec.linScale (Ideal.ofBits .f32 0x3D106EBB#32) (m ((c : Thread nD τ).loc main_arg0)) (m ((c : Thread nD τ).loc main_arg3)))
      (m ((c : Thread nD τ).loc main_arg1)))
    (m ((c : Thread nD τ).loc main_arg4))
    (shapeCast S1x64 (m ((c : Thread nD τ).loc main_arg5)) shapeCasts_S64_S1x64)
    (m ((c : Thread nD τ).loc main_arg6))
    (shapeCast S1x64 (m ((c : Thread nD τ).loc main_arg7)) shapeCasts_S64_S1x64)

/-- The last segment boundary's contents at the result buffer are `result`. -/
theorem final (c : Dev nD) : W3 m ρ c (Proc.devRef .tc main_v26) = result m c := by
  refine (W3_arr m ρ c 5).trans ((Perceptron.final (V2 m ρ) c).trans ?_)
  rw [entry_features, scaled, edges, entry_w1, entry_w2, entry_b1, entry_b2]
  rfl

end Cert.KernelIdeal.Between

end
-- ==== Proof.Scale.lean ====
/-
  The one constant the two programs spell differently. The reference divides the single-precision word of
  1/(2√π) by the square root of 64; the kernel multiplies by a single word. On the extended reals the square
  root of 64 is 8, and the kernel's word has the same significand as the reference's with the exponent three
  lower, so the quotient and the word are the same real number, 9465531 / 2^28.
-/
import Idealize.ShloMosaic.PureOps.Ideal

noncomputable section

namespace Cert.Scale

open Idealize.ShloMosaic

/-- The word `0x42800000` denotes the real 64. -/
theorem ofBits_sixtyfour : Ideal.ofBits .f32 0x42800000#32 = ((64 : ℝ) : EReal) := by
  simp [Ideal.ofBits, Ideal.ieee, -EReal.coe_mul]; norm_num

/-- The reference's word `0x3E906EBB` denotes 9465531 · 2⁻²⁵. -/
theorem ofBits_numerator : Ideal.ofBits .f32 0x3E906EBB#32 = ((9465531 / 33554432 : ℝ) : EReal) := by
  simp [Ideal.ofBits, Ideal.ieee, -EReal.coe_mul]; norm_num

/-- The kernel's word `0x3D106EBB` denotes 9465531 · 2⁻²⁸. -/
theorem ofBits_scale : Ideal.ofBits .f32 0x3D106EBB#32 = ((9465531 / 268435456 : ℝ) : EReal) := by
  simp [Ideal.ofBits, Ideal.ieee, -EReal.coe_mul]; norm_num

/-- The square root of 64 on the extended reals is 8. -/
theorem sqrt_sixtyfour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- The reference's quotient is the kernel's word. -/
theorem quotient_eq_scale :
    Ideal.div (Ideal.ofBits .f32 0x3E906EBB#32) (Ideal.sqrt (Ideal.ofBits .f32 0x42800000#32))
      = Ideal.ofBits .f32 0x3D106EBB#32 := by
  rw [ofBits_sixtyfour, sqrt_sixtyfour, ofBits_numerator, ofBits_scale,
    Ideal.div_coe (by norm_num : (8 : ℝ) ≠ 0), ← EReal.coe_mul]
  congr 1
  norm_num

end Cert.Scale

end
-- ==== Proof.Reference.lean ====
/-
  The reference's result as the same two dense stages around the scatter-mean.

  The reference computes X·W times the quotient of its constant by √64, gathers rows of that by the edges' source
  nodes, adds them into their destination nodes and divides by the clamped count (`aggr`: the host operations as the
  reference spells them, as one function of the scaled product and the edge list), and applies the perceptron. Read
  index by index its first stage is `Spec.linScale` at the kernel's scale word (the quotient is that word) and
  its last stage is `Spec.mlp` of the aggregated features; the aggregation in between is never opened.
-/
import proofs.«148474_j23922967838730_1_alg».proof.Proof.Gen.ReferenceIdeal.Read
import proofs.«148474_j23922967838730_1_alg».proof.Proof.Spec
import proofs.«148474_j23922967838730_1_alg».proof.Proof.Scale

set_option maxRecDepth 16384

noncomputable section

namespace Cert.ReferenceIdeal.Whole

open Cert.ReferenceIdeal Cert.ReferenceIdeal.Gen Cert.ReferenceIdeal.Read Idealize.ShloMosaic
open Idealize.ShloMosaic.ValueIdx

/-- The scatter-mean of gathered rows: the rows of `xw` at the edges' source nodes added into the edges' destination
    nodes from zero, divided by the number of incoming edges clamped below at one. -/
def aggr (xw : FVec Ideal S100000x64 .f32) (e : (⟨S2x1250000, .i32⟩ : BufTy).Contents (Elt Ideal)) :
    FVec Ideal S100000x64 .f32 :=
  Host.divf (F := Ideal)
    (Host.scatterAdd (F := Ideal) scatter_S100000x64_S1250000x1_S1250000x64_1_0_0_1 (val_main_v16 (F := Ideal))
      (val_main_v17 (F := Ideal) e)
      (Host.gather gather_S100000x64_S1250000x1_S1250000x64_1_0_n_n_0_1_164 xw (val_main_v14 (F := Ideal) e)))
    (val_main_v26 (F := Ideal) e)

/-- The reference's aggregated features are `aggr` of its scaled product. -/
theorem aggregated_eq (x0 : (⟨S100000x64, .f32⟩ : BufTy).Contents (Elt Ideal)) (x1 : (⟨S2x1250000, .i32⟩ : BufTy).Contents (Elt Ideal))
    (x3 : (⟨S64x64, .f32⟩ : BufTy).Contents (Elt Ideal)) :
    val_main_v27 (F := Ideal) x0 x1 x3 = aggr (val_main_v8 (F := Ideal) x0 x3) x1 := rfl

/-- The reference's scaled product is `linScale` at the kernel's scale word. -/
theorem scaled_eq (x0 : (⟨S100000x64, .f32⟩ : BufTy).Contents (Elt Ideal)) (x3 : (⟨S64x64, .f32⟩ : BufTy).Contents (Elt Ideal)) :
    val_main_v8 (F := Ideal) x0 x3 = Spec.linScale (Ideal.ofBits .f32 0x3D106EBB#32) x0 x3 := by
  funext i
  have el : ∀ k : Fin 64, lidx_main_v6 i k = (ix2 (i 0) k : S100000x64.Idx) := fun k =>
    funext fun a => Fin.ext (by match a with | ⟨0, _⟩ => rfl | ⟨1, _⟩ => rfl)
  have er : ∀ k : Fin 64, ridx_main_v6 i k = (ix2 k (i 1) : S64x64.Idx) := fun k =>
    funext fun a => Fin.ext (by match a with | ⟨0, _⟩ => rfl | ⟨1, _⟩ => rfl)
  rw [val_main_v8_apply, val_main_v6_apply, val_main_v7_apply, val_main_v5_apply, val_main_cst_0_apply, val_main_v4_apply,
    val_main_cst_apply]
  simp only [Ideal.mulf_def, Ideal.hostDivf_def, Ideal.hostUnary_sqrt_def, Ideal.ofBits_def, Scale.quotient_eq_scale, el, er]
  rfl

/-- The reference's result is the perceptron of its aggregated features, the biases as rows. -/
theorem result_eq (x0 : (⟨S100000x64, .f32⟩ : BufTy).Contents (Elt Ideal)) (x1 : (⟨S2x1250000, .i32⟩ : BufTy).Contents (Elt Ideal))
    (x3 x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v36 (F := Ideal) x0 x1 x3 x4 x5 x6 x7
      = Spec.mlp (val_main_v27 (F := Ideal) x0 x1 x3) x4 (val_main_v29 (F := Ideal) x5) x6 (val_main_v34 (F := Ideal) x7) := by
  funext i
  have el33 : ∀ k : Fin 64, lidx_main_v33 i k = (ix2 (i 0) k : S100000x64.Idx) := fun k =>
    funext fun a => Fin.ext (by match a with | ⟨0, _⟩ => rfl | ⟨1, _⟩ => rfl)
  have er33 : ∀ k : Fin 64, ridx_main_v33 i k = (ix2 k (i 1) : S64x64.Idx) := fun k =>
    funext fun a => Fin.ext (by match a with | ⟨0, _⟩ => rfl | ⟨1, _⟩ => rfl)
  have e35 : idx_main_v35 i = (ix2 (0 : Fin 1) (i 1) : S1x64.Idx) :=
    funext fun a => Fin.ext (by match a with | ⟨0, _⟩ => rfl | ⟨1, _⟩ => rfl)
  have layer : ∀ k : Fin 64, val_main_v32 (F := Ideal) x0 x1 x3 x4 x5 (ix2 (i 0) k : S100000x64.Idx)
      = max ((∑ j : Fin 64, val_main_v27 (F := Ideal) x0 x1 x3 (ix2 (i 0) j) * x4 (ix2 j k))
          + val_main_v29 (F := Ideal) x5 (ix2 (0 : Fin 1) k)) 0 := by
    intro k
    have el28 : ∀ j : Fin 64, lidx_main_v28 (ix2 (i 0) k : S100000x64.Idx) j = (ix2 (i 0) j : S100000x64.Idx) := fun j =>
      funext fun a => Fin.ext (by match a with | ⟨0, _⟩ => rfl | ⟨1, _⟩ => rfl)
    have er28 : ∀ j : Fin 64, ridx_main_v28 (ix2 (i 0) k : S100000x64.Idx) j = (ix2 j k : S64x64.Idx) := fun j =>
      funext fun a => Fin.ext (by match a with | ⟨0, _⟩ => rfl | ⟨1, _⟩ => rfl)
    have e30 : idx_main_v30 (ix2 (i 0) k : S100000x64.Idx) = (ix2 (0 : Fin 1) k : S1x64.Idx) :=
      funext fun a => Fin.ext (by match a with | ⟨0, _⟩ => rfl | ⟨1, _⟩ => rfl)
    rw [val_main_v32_apply, val_main_call0_v0_apply, val_main_call0_cst_apply, val_main_v31_apply, val_main_v30_apply,
      val_main_v28_apply]
    simp only [el28, er28, e30, Ideal.maximumf_def, Ideal.addf_def, Ideal.ofBits_def, Ideal.ofBits_zero_f32]
  rw [val_main_v36_apply, val_main_v35_apply, val_main_v33_apply]
  simp only [el33, er33, e35, layer, Ideal.addf_def]
  rfl

end Cert.ReferenceIdeal.Whole

end
-- ==== Proof.Bridge.lean ====
/-
  The two idealized programs compute one function of the arguments.

  Both are: the product X·W_tp scaled by one constant; the scatter-mean of its rows along the edges; the two-layer
  perceptron of the result. The constants agree (the reference's quotient by √64 is the kernel's word), the two
  programs spell the aggregation with the same host operations, and the reference's bias row — the bias vector
  broadcast to [1, 64] — is the kernel's — the bias vector reshaped to [1, 64]: entry (0, k) of either is entry k of
  the vector. No law of arithmetic beyond these identifications is used, so nothing is asked of the inputs.
-/
import proofs.«148474_j23922967838730_1_alg».proof.Proof.Between
import proofs.«148474_j23922967838730_1_alg».proof.Proof.Reference
import Idealize.ShloMosaic.Lib.ValueLayout

set_option maxRecDepth 16384

noncomputable section

namespace Cert.Bridge

open Idealize.ShloMosaic Idealize.ShloMosaic.ValueIdx

/-- The aggregation is spelt with the same operations in both programs. -/
theorem aggr_eq (xw : FVec Ideal Cert.KernelIdeal.S100000x64 .f32)
    (e : (⟨Cert.KernelIdeal.S2x1250000, .i32⟩ : BufTy).Contents (Elt Ideal)) :
    Cert.KernelIdeal.Between.aggr xw e = Cert.ReferenceIdeal.Whole.aggr xw e := rfl

/-- A vector broadcast to one row is the vector reshaped to one row. -/
theorem row_eq (b : (⟨Cert.ReferenceIdeal.S64, .f32⟩ : BufTy).Contents (Elt Ideal)) :
    Cert.ReferenceIdeal.Read.val_main_v29 (F := Ideal) b
      = shapeCast Cert.KernelIdeal.S1x64 b Cert.KernelIdeal.Facts₀.shapeCasts_S64_S1x64 := by
  funext y
  obtain ⟨u, k, rfl⟩ : ∃ (u : Fin 1) (k : Fin 64), y = ix2 u k := ⟨y 0, y 1, eq_ix2 y⟩
  rw [Cert.ReferenceIdeal.Read.val_main_v29_apply, shapeCast_a_1a_apply]
  exact congrArg b (funext fun a => Fin.ext (by match a with | ⟨0, _⟩ => rfl))

/-- The same for the second bias. -/
theorem row_eq' (b : (⟨Cert.ReferenceIdeal.S64, .f32⟩ : BufTy).Contents (Elt Ideal)) :
    Cert.ReferenceIdeal.Read.val_main_v34 (F := Ideal) b
      = shapeCast Cert.KernelIdeal.S1x64 b Cert.KernelIdeal.Facts₀.shapeCasts_S64_S1x64 := by
  funext y
  obtain ⟨u, k, rfl⟩ : ∃ (u : Fin 1) (k : Fin 64), y = ix2 u k := ⟨y 0, y 1, eq_ix2 y⟩
  rw [Cert.ReferenceIdeal.Read.val_main_v34_apply, shapeCast_a_1a_apply]
  exact congrArg b (funext fun a => Fin.ext (by match a with | ⟨0, _⟩ => rfl))

/-- The reference's result, as the kernel's function of the same arrays. -/
theorem reference_eq (x0 : (⟨Cert.ReferenceIdeal.S100000x64, .f32⟩ : BufTy).Contents (Elt Ideal))
    (x1 : (⟨Cert.ReferenceIdeal.S2x1250000, .i32⟩ : BufTy).Contents (Elt Ideal))
    (x3 x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal)) :
    Cert.ReferenceIdeal.Read.val_main_v36 (F := Ideal) x0 x1 x3 x4 x5 x6 x7
      = Spec.mlp (Cert.KernelIdeal.Between.aggr (Spec.linScale (Ideal.ofBits .f32 0x3D106EBB#32) x0 x3) x1) x4
          (shapeCast Cert.KernelIdeal.S1x64 x5 Cert.KernelIdeal.Facts₀.shapeCasts_S64_S1x64) x6
          (shapeCast Cert.KernelIdeal.S1x64 x7 Cert.KernelIdeal.Facts₀.shapeCasts_S64_S1x64) := by
  rw [Cert.ReferenceIdeal.Whole.result_eq, Cert.ReferenceIdeal.Whole.aggregated_eq, Cert.ReferenceIdeal.Whole.scaled_eq,
    row_eq, row_eq', aggr_eq]

end Cert.Bridge

end
-- ==== Proof.lean ====
/-
  The certificate's five claims.

  The kernel is a two-stage graph network layer: X·W_tp scaled by 1/(2√π)/8 in a first pipelined region, a
  scatter-mean of its rows along the edges on the host, and a two-layer perceptron with a rectifier in a second
  pipelined region; the reference is the same layer in plain array operations, its scale written as a quotient by
  √64. On the extended reals the two results are one function of the arguments: the quotient is the kernel's word
  (`Cert.Scale`), each region's output array is the whole-array stage of the arrays it finds (`Cert.KernelIdeal.Linear`,
  `Cert.KernelIdeal.Perceptron`: a block of rows of a matrix product depends only on those rows), and the host
  operations between are the reference's own (`Cert.Bridge`). The three frames: the two kernels' are their programs'
  frame theorems; the reference's is its run with the result dropped. The idealization rewrote nothing, so
  `preserves` has nothing to state.
-/
import proofs.«148474_j23922967838730_1_alg».proof.Defs
import proofs.«148474_j23922967838730_1_alg».proof.Proof.Gen.Kernel
import proofs.«148474_j23922967838730_1_alg».proof.Proof.Gen.Kernel.Skeleton
import proofs.«148474_j23922967838730_1_alg».proof.Proof.Gen.Kernel.Launch
import proofs.«148474_j23922967838730_1_alg».proof.Proof.Gen.Kernel.Points
import proofs.«148474_j23922967838730_1_alg».proof.Proof.Gen.Kernel.Frame
import proofs.«148474_j23922967838730_1_alg».proof.Proof.Gen.KernelIdeal
import proofs.«148474_j23922967838730_1_alg».proof.Proof.Gen.KernelIdeal.Skeleton
import proofs.«148474_j23922967838730_1_alg».proof.Proof.Gen.KernelIdeal.Launch
import proofs.«148474_j23922967838730_1_alg».proof.Proof.Gen.KernelIdeal.Points
import proofs.«148474_j23922967838730_1_alg».proof.Proof.Gen.KernelIdeal.Frame
import proofs.«148474_j23922967838730_1_alg».proof.Proof.Gen.ReferenceIdeal
import proofs.«148474_j23922967838730_1_alg».proof.Proof.Gen.ReferenceIdeal.Run
import proofs.«148474_j23922967838730_1_alg».proof.Proof.Gen.ReferenceIdeal.Read
import proofs.«148474_j23922967838730_1_alg».proof.Proof.Gen.Pre_finite_inputs
import proofs.«148474_j23922967838730_1_alg».proof.Proof.KernelRun
import proofs.«148474_j23922967838730_1_alg».proof.Proof.Bridge
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- From memories agreeing on the arguments both idealized programs end with the result array at the perceptron of
    the aggregated scaled product of the arguments. -/
theorem algebraic : Cert.algebraic_KernelIdeal_ReferenceIdeal := by
  intro m ρ m' ρ' _ hagree
  refine ⟨fun c => Cert.KernelIdeal.Between.result m c, ?_, ?_⟩
  · exact (θ_run Cert.KernelIdeal.defs _ _).mono
      (fun r h c => ⟨(h c).1.trans (Cert.KernelIdeal.Between.final m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v36_eq, h0, h1, h3, h4, h5, h6, h7]
    exact Cert.Bridge.reference_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
